-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S1250000 : Shape := ⟨1, ![1250000]⟩
abbrev S128x128 : Shape := ⟨2, ![128, 128]⟩
abbrev S128 : Shape := ⟨1, ![128]⟩
abbrev S3x128 : Shape := ⟨2, ![3, 128]⟩
abbrev S3 : Shape := ⟨1, ![3]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1250000 : S_.BroadcastsInDim S1250000 (![] : Fin 0 → Fin S1250000.rank)
  reducesTo_S1250000_S_d0 : S1250000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg8 : FVec F S3 .f32) (main_v33 : IVec S_ 1) : IVec S_ 1 :=
  let main_v34 : FVec F S3 .f32 := Host.absf main_arg8
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S3x128 .f32) (main_arg8 : FVec F S3 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_v33

def fn {F : FTy → Type} [FloatOps F] (main_arg0 : FVec F S100000x64 .f32) (main_arg1 : IVec S2x1250000 32) (main_arg2 : FVec F S1250000 .f32) (main_arg3 : FVec F S128x128 .f32) (main_arg4 : FVec F S128 .f32) (main_arg5 : FVec F S128x128 .f32) (main_arg6 : FVec F S128 .f32) (main_arg7 : FVec F S3x128 .f32) (main_arg8 : FVec F S3 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1250000 .f32 := Host.absf main_arg2
  let main_cst_0 : FVec F S_ .f32 := constant S_ .f32 0x7F800000#32
  let main_v5 : FVec F S1250000 .f32 := broadcastInDim S1250000 ![] bcast_S_S1250000 main_cst_0
  let main_v6 : IVec S1250000 1 := cmpf .olt main_v4 main_v5
  let main_c_1 : IVec S_ 1 := constantI S_ 1 1#1
  let main_v7 : IVec S_ 1 := (fun x v => Host.reduce IntOp.andi x v reducesTo_S1250000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x64 : Shape := ⟨2, ![100000, 64]⟩
abbrev S2x1250000 : Shape := ⟨2, ![2, 1250000]⟩
abbrev S1250000 : Shape := ⟨1, ![1250000]⟩
abbrev S128x128 : Shape := ⟨2, ![128, 128]⟩
abbrev S128 : Shape := ⟨1, ![128]⟩
abbrev S3x128 : Shape := ⟨2, ![3, 128]⟩
abbrev S3 : Shape := ⟨1, ![3]⟩
abbrev S1x1250000 : Shape := ⟨2, ![1, 1250000]⟩
abbrev S_ : Shape := ⟨0, ![]⟩
abbrev S1250000x1 : Shape := ⟨2, ![1250000, 1]⟩
abbrev S1250000x64 : Shape := ⟨2, ![1250000, 64]⟩
abbrev S64x128 : Shape := ⟨2, ![64, 128]⟩
abbrev S128x3 : Shape := ⟨2, ![128, 3]⟩
abbrev S100000x3 : Shape := ⟨2, ![100000, 3]⟩
abbrev S10000x64 : Shape := ⟨2, ![10000, 64]⟩
abbrev S10000x3 : Shape := ⟨2, ![10000, 3]⟩
abbrev S10000x128 : Shape := ⟨2, ![10000, 128]⟩
abbrev S1x128 : Shape := ⟨2, ![1, 128]⟩
abbrev S1x3 : Shape := ⟨2, ![1, 3]⟩

abbrev nBuf : Space → Nat
  | .hbm => 35
  | .vmem => 13
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x128, .f32⟩
  | .hbm, ⟨8, _⟩ => ⟨S3, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S1250000x1, .f32⟩
  | .hbm, ⟨23, _⟩ => ⟨S1250000x64, .f32⟩
  | .hbm, ⟨24, _⟩ => ⟨S1250000x64, .f32⟩
  | .hbm, ⟨25, _⟩ => ⟨S_, .f32⟩
  | .hbm, ⟨26, _⟩ => ⟨S100000x64, .f32⟩
  | .hbm, ⟨27, _⟩ => ⟨S1250000x1, .i32⟩
  | .hbm, ⟨28, _⟩ => ⟨S100000x64, .f32⟩
  | .hbm, ⟨29, _⟩ => ⟨S128x128, .f32⟩
  | .hbm, ⟨30, _⟩ => ⟨S64x128, .f32⟩
  | .hbm, ⟨31, _⟩ => ⟨S64x128, .f32⟩
  | .hbm, ⟨32, _⟩ => ⟨S128x128, .f32⟩
  | .hbm, ⟨33, _⟩ => ⟨S128x3, .f32⟩
  | .hbm, ⟨34, _⟩ => ⟨S100000x3, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S128x3, .f32⟩
  | .local _ .vmem, ⟨10, _⟩ => ⟨S3, .f32⟩
  | .local _ .vmem, ⟨11, _⟩ => ⟨S10000x3, .f32⟩
  | .local _ .vmem, ⟨12, _⟩ => ⟨S10000x3, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S10000x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  transposes_S128x128_S128x128_1_0 : S128x128.Transposes [1, 0] S128x128
  slices_S128x128_S64x128_0_0 : S128x128.Slices ![0, 0] S64x128
  slices_S128x128_S64x128_64_0 : S128x128.Slices ![64, 0] S64x128
  transposes_S3x128_S128x3_1_0 : S3x128.Transposes [1, 0] S128x3
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S3_S3_0 : ∀ a, (![0] : Fin 1 → Nat) a + S3.size a ≤ S3.size a
  h_S3 : 0 < S3.numel
  shapeCasts_S3_S1x3 : S3.ShapeCasts S1x3
  broadcasts_S1x3_S10000x3 : S1x3.Broadcasts S10000x3
  inb_S10000x3_S10000x3_0_0 : ∀ a, (![0, 0] : Fin 2 → Nat) a + S10000x3.size a ≤ S10000x3.size a
  h_S10000x3 : 0 < S10000x3.numel
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S10000x64_S64x128_S10000x128_1_0_0_1_n_n_wf : DotDims.WF S10000x64 S64x128 S10000x128 [1] [0] [0] [1] [] []
  dot_S10000x128_S128x128_S10000x128_1_0_0_1_n_n_wf : DotDims.WF S10000x128 S128x128 S10000x128 [1] [0] [0] [1] [] []
  dot_S10000x128_S128x3_S10000x3_1_0_0_1_n_n_wf : DotDims.WF S10000x128 S128x3 S10000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x3.size a ≤ S128x3.size a
  hwx0_7 : ∀ i : grid0.Coords, EltTy.bits .f32 = 32 ∨ (Rect.block (s := S128x3) S128x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3.size a ≤ S3.size a
  hwx0_8 : ∀ i : grid0.Coords, EltTy.bits .f32 = 32 ∨ (Rect.block (s := S3) S3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S10000x3.size a ≤ S100000x3.size a
  hwx0_9 : ∀ i : grid0.Coords, EltTy.bits .f32 = 32 ∨ (Rect.block (s := S100000x3) S10000x3.size (cc0_transform_9 i) (hinb0_9 i)).WholeWords (EltTy.packing .f32)

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x3_S10000x3_1_0_0_1_n_n : DotDims S10000x128 S128x3 S10000x3 where
  lhsContracting := [1]
  rhsContracting := [0]
  lhsNonContracting := [0]
  rhsNonContracting := [1]
  lhsBatch := []
  rhsBatch := []
  wf := dot_S10000x128_S128x3_S10000x3_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v19) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S128x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v22) S10000x3.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S1250000 : Shape := ⟨1, ![1250000]⟩
abbrev S128x128 : Shape := ⟨2, ![128, 128]⟩
abbrev S128 : Shape := ⟨1, ![128]⟩
abbrev S3x128 : Shape := ⟨2, ![3, 128]⟩
abbrev S3 : Shape := ⟨1, ![3]⟩
abbrev S1x1250000 : Shape := ⟨2, ![1, 1250000]⟩
abbrev S_ : Shape := ⟨0, ![]⟩
abbrev S1250000x1 : Shape := ⟨2, ![1250000, 1]⟩
abbrev S1250000x64 : Shape := ⟨2, ![1250000, 64]⟩
abbrev S100000x128 : Shape := ⟨2, ![100000, 128]⟩
abbrev S1x128 : Shape := ⟨2, ![1, 128]⟩
abbrev S128x3 : Shape := ⟨2, ![128, 3]⟩
abbrev S100000x3 : Shape := ⟨2, ![100000, 3]⟩
abbrev S1x3 : Shape := ⟨2, ![1, 3]⟩

abbrev nBuf : Space → Nat
  | .hbm => 51
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S1250000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S3x128, .f32⟩
  | .hbm, ⟨8, _⟩ => ⟨S3, .f32⟩
  | .hbm, ⟨9, _⟩ => ⟨S1x1250000, .i32⟩
  | .hbm, ⟨10, _⟩ => ⟨S1250000, .i32⟩
  | .hbm, ⟨11, _⟩ => ⟨S1x1250000, .i32⟩
  | .hbm, ⟨12, _⟩ => ⟨S1250000, .i32⟩
  | .hbm, ⟨13, _⟩ => ⟨S_, .i32⟩
  | .hbm, ⟨14, _⟩ => ⟨S1250000, .i32⟩
  | .hbm, ⟨15, _⟩ => ⟨S1250000, .i1⟩
  | .hbm, ⟨16, _⟩ => ⟨S_, .i32⟩
  | .hbm, ⟨17, _⟩ => ⟨S1250000, .i32⟩
  | .hbm, ⟨18, _⟩ => ⟨S1250000, .i32⟩
  | .hbm, ⟨19, _⟩ => ⟨S1250000, .i32⟩
  | .hbm, ⟨20, _⟩ => ⟨S1250000x1, .i32⟩
  | .hbm, ⟨21, _⟩ => ⟨S1250000x64, .f32⟩
  | .hbm, ⟨22, _⟩ => ⟨S1250000x1, .f32⟩
  | .hbm, ⟨23, _⟩ => ⟨S1250000x64, .f32⟩
  | .hbm, ⟨24, _⟩ => ⟨S1250000x64, .f32⟩
  | .hbm, ⟨25, _⟩ => ⟨S_, .f32⟩
  | .hbm, ⟨26, _⟩ => ⟨S100000x64, .f32⟩
  | .hbm, ⟨27, _⟩ => ⟨S1250000x1, .i32⟩
  | .hbm, ⟨28, _⟩ => ⟨S100000x64, .f32⟩
  | .hbm, ⟨29, _⟩ => ⟨S100000x128, .f32⟩
  | .hbm, ⟨30, _⟩ => ⟨S128x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | .hbm, ⟨35, _⟩ => ⟨S_, .f32⟩
  | .hbm, ⟨36, _⟩ => ⟨S100000x128, .f32⟩
  | .hbm, ⟨37, _⟩ => ⟨S100000x128, .f32⟩
  | .hbm, ⟨38, _⟩ => ⟨S128x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S128x3, .f32⟩
  | .hbm, ⟨47, _⟩ => ⟨S100000x3, .f32⟩
  | .hbm, ⟨48, _⟩ => ⟨S1x3, .f32⟩
  | .hbm, ⟨49, _⟩ => ⟨S100000x3, .f32⟩
  | .hbm, ⟨50, _⟩ => ⟨S100000x3, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S100000x64 : S_.BroadcastsInDim S100000x64 (![] : Fin 0 → Fin S100000x64.rank)
  concatenates_S100000x64_S100000x64_S100000x128_d1 : Shape.Concatenates [S100000x64, S100000x64] S100000x128 1
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  transposes_S3x128_S128x3_1_0 : S3x128.Transposes [1, 0] S128x3
  bcast_S3_S1x3_1 : S3.BroadcastsInDim S1x3 (![1] : Fin 1 → Fin S1x3.rank)
  bcast_S1x3_S100000x3_0_1 : S1x3.BroadcastsInDim S100000x3 (![0, 1] : Fin 2 → Fin S100000x3.rank)
  gather_S100000x64_S1250000x1_S1250000x64_1_0_n_n_0_1_164_wf : GatherDims.WF S100000x64 S1250000x1 S1250000x64 [1] [0] [] [0] [] 1 ![1, 64]
  scatter_S100000x64_S1250000x1_S1250000x64_1_0_0_1_wf : ScatterDims.WF S100000x64 S1250000x1 S1250000x64 [1] [0] [0] 1
  dot_S100000x128_S128x128_S100000x128_1_0_0_1_n_n_wf : DotDims.WF S100000x128 S128x128 S100000x128 [1] [0] [0] [1] [] []
  dot_S100000x128_S128x3_S100000x3_1_0_0_1_n_n_wf : DotDims.WF S100000x128 S128x3 S100000x3 [1] [0] [0] [1] [] []

variable [Facts₀]

def gather_S100000x64_S1250000x1_S1250000x64_1_0_n_n_0_1_164 : GatherDims S100000x64 S1250000x1 S1250000x64 where
  offsetDims := [1]
  collapsedSliceDims := [0]
  operandBatchingDims := []
  startIndicesBatchingDims := []
  startIndexMap := [0]
  indexVectorDim := 1
  sliceSizes := ![1, 64]
  wf := gather_S100000x64_S1250000x1_S1250000x64_1_0_n_n_0_1_164_wf
def scatter_S100000x64_S1250000x1_S1250000x64_1_0_0_1 : ScatterDims S100000x64 S1250000x1 S1250000x64 where
  updateWindowDims := [1]
  insertedWindowDims := [0]
  scatterDimsToOperandDims := [0]
  indexVectorDim := 1
  wf := scatter_S100000x64_S1250000x1_S1250000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x3_S100000x3_1_0_0_1_n_n : DotDims S100000x128 S128x3 S100000x3 where
  lhsContracting := [1]
  rhsContracting := [0]
  lhsNonContracting := [0]
  rhsNonContracting := [1]
  lhsBatch := []
  rhsBatch := []
  wf := dot_S100000x128_S128x3_S100000x3_1_0_0_1_n_n_wf

class Facts : Prop extends Facts₀ where

variable [Facts]
-- ==== Proof.Spec.lean ====
/-
  The network the two programs compute, written once over plain finite index types.

  A node p has a feature row x_p (64 entries) and an aggregated row g_p (64 entries: the weighted sum of the feature rows
  of the edges arriving at p). Three dense layers follow:
    h1_j  = max( sum_a x_p[a] * Wf[a,j] + sum_a g_p[a] * Wa[a,j] + b1_j , 0 )        (j < 128)
    h2_k  = max( sum_j h1_j * W2[j,k] + b2_k , 0 )                                   (k < 128)
    out_q = sum_k h2_k * W3[k,q] + b3_q                                              (q < 3)
  Wf and Wa are the two halves of one 128-row weight matrix: row a and row 64 + a. One program multiplies the
  concatenated row (x_p, g_p) of length 128 with the whole matrix; the other multiplies the two halves apart and adds.
  The two agree because a sum over 128 = 64 + 64 indices is the sum over the first 64 plus the sum over the last 64
  (`sum_halves`), a law of any commutative monoid, so it holds on the extended reals with no finiteness assumption.
-/
import Idealize.ShloMosaic.PureOps.Ideal
import Idealize.ShloMosaic.Lib.ValueIdx

noncomputable section

open scoped BigOperators

namespace Cert.GnnMlp

open Idealize.ShloMosaic Idealize.ShloMosaic.ValueIdx

/-- Position a of the first half of a row of length 128. -/
def lo64 (a : Fin 64) : Fin 128 := ⟨a.val, by omega⟩
/-- Position a of the second half of a row of length 128: 64 + a. -/
def hi64 (a : Fin 64) : Fin 128 := ⟨64 + a.val, by omega⟩

/-- A sum over 128 indices is the sum over the first 64 plus the sum over the last 64. -/
theorem sum_halves {M : Type*} [AddCommMonoid M] (f : Fin 128 → M) :
    ∑ k : Fin 128, f k = ∑ a : Fin 64, f (lo64 a) + ∑ a : Fin 64, f (hi64 a) :=
  Fin.sum_univ_add (a := 64) (b := 64) f

/-- First layer at hidden unit j, from a node's feature row and aggregated row. -/
def dense1 (x g : Fin 64 → EReal) (wf wa : Fin 64 → Fin 128 → EReal) (b : Fin 128 → EReal) (j : Fin 128) : EReal :=
  max ((∑ a : Fin 64, x a * wf a j + ∑ a : Fin 64, g a * wa a j) + b j) 0

/-- Second layer at hidden unit k. -/
def dense2 (h : Fin 128 → EReal) (w : Fin 128 → Fin 128 → EReal) (b : Fin 128 → EReal) (k : Fin 128) : EReal :=
  max ((∑ j : Fin 128, h j * w j k) + b k) 0

/-- Output layer at class q. -/
def dense3 (h : Fin 128 → EReal) (w : Fin 128 → Fin 3 → EReal) (b : Fin 3 → EReal) (q : Fin 3) : EReal :=
  (∑ k : Fin 128, h k * w k q) + b q

/-- The three layers of one node. -/
def mlpRow (x g : Fin 64 → EReal) (wf wa : Fin 64 → Fin 128 → EReal) (b1 : Fin 128 → EReal)
    (w2 : Fin 128 → Fin 128 → EReal) (b2 : Fin 128 → EReal) (w3 : Fin 128 → Fin 3 → EReal) (b3 : Fin 3 → EReal) (q : Fin 3) : EReal :=
  dense3 (dense2 (dense1 x g wf wa b1) w2 b2) w3 b3 q

/-- The whole result array [100000, 3] from the feature array, the aggregated array and the parameters as the programs
    receive them (each weight matrix stored output-major: W[j, a] multiplies input a into output j). -/
def mlp (feat aggr : (⟨2, ![100000, 64]⟩ : Shape).Idx → EReal) (Wrel : (⟨2, ![128, 128]⟩ : Shape).Idx → EReal)
    (brel : (⟨1, ![128]⟩ : Shape).Idx → EReal) (Wh1 : (⟨2, ![128, 128]⟩ : Shape).Idx → EReal) (bh1 : (⟨1, ![128]⟩ : Shape).Idx → EReal)
    (Wout : (⟨2, ![3, 128]⟩ : Shape).Idx → EReal) (bout : (⟨1, ![3]⟩ : Shape).Idx → EReal) :
    (⟨2, ![100000, 3]⟩ : Shape).Idx → EReal := fun i =>
  mlpRow (fun a => feat (ix2 (i 0) a)) (fun a => aggr (ix2 (i 0) a))
    (fun a j => Wrel (ix2 j (lo64 a))) (fun a j => Wrel (ix2 j (hi64 a))) (fun j => brel (ix1 j))
    (fun j k => Wh1 (ix2 k j)) (fun k => bh1 (ix1 k)) (fun k q => Wout (ix2 q k)) (fun q => bout (ix1 q)) (i 1)

end Cert.GnnMlp

end
-- ==== Proof.Payload.lean ====
/-
  The kernel body's arithmetic read at one entry of its output block.

  The body loads a block of 10000 feature rows, the matching 10000 aggregated rows and the parameters, and stores one
  [10000, 3] block. Each matrix product accumulates into a zero array, so at the exact reals it is the plain sum over
  the contracted axis; each bias is a vector laid as one row and repeated down the 10000 rows; each ReLU is a maximum
  with the zero word. Read at row r and class q, the stored value is therefore the three dense layers of `Spec.lean`
  applied to row r of the two data blocks.
-/
import proofs.«130431_j63058709840500_2_alg».proof.Proof.Gen.KernelIdeal.Skeleton
import proofs.«130431_j63058709840500_2_alg».proof.Proof.Spec
import Idealize.ShloMosaic.PureOps.Ideal.Laws
import Idealize.ShloMosaic.Lib.ValueLayout

noncomputable section

open scoped BigOperators

namespace Cert.GnnMlp.Body

open Cert.KernelIdeal Cert.KernelIdeal.Gen Idealize.ShloMosaic Idealize.ShloMosaic.ValueIdx Cert.GnnMlp

/-! ## The three matrix products at an entry -/

theorem matmul_in_lhs0 (i : S10000x128.Idx) (q : dot_S10000x64_S64x128_S10000x128_1_0_0_1_n_n.contr.Idx) : (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
theorem matmul_in_rhs1 (i : S10000x128.Idx) (q : dot_S10000x64_S64x128_S10000x128_1_0_0_1_n_n.contr.Idx) : (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl
/-- [10000, 64] times [64, 128] into zero, at (r, j): the sum over the 64 shared positions. -/
theorem matmul_in (l : FVec Ideal S10000x64 .f32) (w : FVec Ideal S64x128 .f32) (r : Fin 10000) (j : Fin 128) :
    matmul dot_S10000x64_S64x128_S10000x128_1_0_0_1_n_n none l w (constant S10000x128 .f32 0x00000000#32) (ix2 r j)
      = ∑ a : Fin 64, l (ix2 r a) * w (ix2 a j) := by
  refine (Ideal.matmul_constant_zero_apply _ _ _ _ _).trans ?_
  rw [← Equiv.sum_comp (contrEquiv1 dot_S10000x64_S64x128_S10000x128_1_0_0_1_n_n 64 rfl rfl).symm]
  refine Finset.sum_congr rfl fun k _ => ?_
  have hk := contrEquiv1_symm_val dot_S10000x64_S64x128_S10000x128_1_0_0_1_n_n 64 rfl rfl k
  have el : dot_S10000x64_S64x128_S10000x128_1_0_0_1_n_n.lhsIdx (ix2 r j) ((contrEquiv1 dot_S10000x64_S64x128_S10000x128_1_0_0_1_n_n 64 rfl rfl).symm k) = ix2 r k :=
    funext fun a => Fin.ext (by
      match a with
      | ⟨0, _⟩ => exact matmul_in_lhs0 _ _
      | ⟨1, _⟩ => exact (dot_S10000x64_S64x128_S10000x128_1_0_0_1_n_n.lhsIdx_val_of_single rfl _ _).trans hk)
  have er : dot_S10000x64_S64x128_S10000x128_1_0_0_1_n_n.rhsIdx (ix2 r j) ((contrEquiv1 dot_S10000x64_S64x128_S10000x128_1_0_0_1_n_n 64 rfl rfl).symm k) = ix2 k j :=
    funext fun a => Fin.ext (by
      match a with
      | ⟨0, _⟩ => exact (dot_S10000x64_S64x128_S10000x128_1_0_0_1_n_n.rhsIdx_val_of_single rfl _ _).trans hk
      | ⟨1, _⟩ => exact matmul_in_rhs1 _ _)
  rw [el, er]

theorem matmul_hid_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem matmul_hid_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl
/-- [10000, 128] times [128, 128] into zero, at (r, k): the sum over the 128 shared positions. -/
theorem matmul_hid (l : FVec Ideal S10000x128 .f32) (w : FVec Ideal S128x128 .f32) (r : Fin 10000) (j : Fin 128) :
    matmul dot_S10000x128_S128x128_S10000x128_1_0_0_1_n_n none l w (constant S10000x128 .f32 0x00000000#32) (ix2 r j)
      = ∑ a : Fin 128, l (ix2 r a) * w (ix2 a j) := by
  refine (Ideal.matmul_constant_zero_apply _ _ _ _ _).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k :=
    funext fun a => Fin.ext (by
      match a with
      | ⟨0, _⟩ => exact matmul_hid_lhs0 _ _
      | ⟨1, _⟩ => exact (dot_S10000x128_S128x128_S10000x128_1_0_0_1_n_n.lhsIdx_val_of_single rfl _ _).trans hk)
  have er : dot_S10000x128_S128x128_S10000x128_1_0_0_1_n_n.rhsIdx (ix2 r j) ((contrEquiv1 dot_S10000x128_S128x128_S10000x128_1_0_0_1_n_n 128 rfl rfl).symm k) = ix2 k j :=
    funext fun a => Fin.ext (by
      match a with
      | ⟨0, _⟩ => exact (dot_S10000x128_S128x128_S10000x128_1_0_0_1_n_n.rhsIdx_val_of_single rfl _ _).trans hk
      | ⟨1, _⟩ => exact matmul_hid_rhs1 _ _)
  rw [el, er]

theorem matmul_out_lhs0 (i : S10000x3.Idx) (q : dot_S10000x128_S128x3_S10000x3_1_0_0_1_n_n.contr.Idx) : (dot_S10000x128_S128x3_S10000x3_1_0_0_1_n_n.lhsIdx i q 0).val = (i 0).val := by
  unfold DotDims.lhsIdx
  rw [dif_neg (show ¬(0 : Fin S10000x128.rank) ∈ dot_S10000x128_S128x3_S10000x3_1_0_0_1_n_n.lhsBatch by decide), dif_pos (show (0 : Fin S10000x128.rank) ∈ dot_S10000x128_S128x3_S10000x3_1_0_0_1_n_n.lhsNonContracting by decide)]
  rfl
theorem matmul_out_rhs1 (i : S10000x3.Idx) (q : dot_S10000x128_S128x3_S10000x3_1_0_0_1_n_n.contr.Idx) : (dot_S10000x128_S128x3_S10000x3_1_0_0_1_n_n.rhsIdx i q 1).val = (i 1).val := by
  unfold DotDims.rhsIdx
  rw [dif_neg (show ¬(1 : Fin S128x3.rank) ∈ dot_S10000x128_S128x3_S10000x3_1_0_0_1_n_n.rhsBatch by decide), dif_pos (show (1 : Fin S128x3.rank) ∈ dot_S10000x128_S128x3_S10000x3_1_0_0_1_n_n.rhsNonContracting by decide)]
  rfl
/-- [10000, 128] times [128, 3] into zero, at (r, q): the sum over the 128 shared positions. -/
theorem matmul_out (l : FVec Ideal S10000x128 .f32) (w : FVec Ideal S128x3 .f32) (r : Fin 10000) (j : Fin 3) :
    matmul dot_S10000x128_S128x3_S10000x3_1_0_0_1_n_n none l w (constant S10000x3 .f32 0x00000000#32) (ix2 r j)
      = ∑ a : Fin 128, l (ix2 r a) * w (ix2 a j) := by
  refine (Ideal.matmul_constant_zero_apply _ _ _ _ _).trans ?_
  rw [← Equiv.sum_comp (contrEquiv1 dot_S10000x128_S128x3_S10000x3_1_0_0_1_n_n 128 rfl rfl).symm]
  refine Finset.sum_congr rfl fun k _ => ?_
  have hk := contrEquiv1_symm_val dot_S10000x128_S128x3_S10000x3_1_0_0_1_n_n 128 rfl rfl k
  have el : dot_S10000x128_S128x3_S10000x3_1_0_0_1_n_n.lhsIdx (ix2 r j) ((contrEquiv1 dot_S10000x128_S128x3_S10000x3_1_0_0_1_n_n 128 rfl rfl).symm k) = ix2 r k :=
    funext fun a => Fin.ext (by
      match a with
      | ⟨0, _⟩ => exact matmul_out_lhs0 _ _
      | ⟨1, _⟩ => exact (dot_S10000x128_S128x3_S10000x3_1_0_0_1_n_n.lhsIdx_val_of_single rfl _ _).trans hk)
  have er : dot_S10000x128_S128x3_S10000x3_1_0_0_1_n_n.rhsIdx (ix2 r j) ((contrEquiv1 dot_S10000x128_S128x3_S10000x3_1_0_0_1_n_n 128 rfl rfl).symm k) = ix2 k j :=
    funext fun a => Fin.ext (by
      match a with
      | ⟨0, _⟩ => exact (dot_S10000x128_S128x3_S10000x3_1_0_0_1_n_n.rhsIdx_val_of_single rfl _ _).trans hk
      | ⟨1, _⟩ => exact matmul_out_rhs1 _ _)
  rw [el, er]

/-! ## A bias vector laid as one row and repeated down the rows -/

/-- A vector of 128 cast to [1, 128] and broadcast to [10000, 128] reads, at (r, j), the vector at j. -/
theorem bias_row128 (b : FVec Ideal S128 .f32) (r : Fin 10000) (j : Fin 128) :
    broadcastTo S10000x128 (shapeCast S1x128 b shapeCasts_S128_S1x128) broadcasts_S1x128_S10000x128 (ix2 r j) = b (ix1 j) := by
  refine (broadcastTo_1b_ab_apply _ _ r j).trans ?_
  exact shapeCast_a_1a_apply b _ 0 j

/-- A vector of 3 cast to [1, 3] and broadcast to [10000, 3] reads, at (r, q), the vector at q. -/
theorem bias_row3 (b : FVec Ideal S3 .f32) (r : Fin 10000) (q : Fin 3) :
    broadcastTo S10000x3 (shapeCast S1x3 b shapeCasts_S3_S1x3) broadcasts_S1x3_S10000x3 (ix2 r q) = b (ix1 q) := by
  refine (broadcastTo_1b_ab_apply _ _ r q).trans ?_
  exact shapeCast_a_1a_apply b _ 0 q

/-! ## The three layers at an entry -/

/-- The first layer's block at (r, j): the two products added, the bias added, the maximum with zero. -/
theorem layer1_apply (x g : FVec Ideal S10000x64 .f32) (wf wa : FVec Ideal S64x128 .f32) (b1 : FVec Ideal S128 .f32)
    (r : Fin 10000) (j : Fin 128) :
    maximumf (addf (addf (matmul (φ₁ := .f32) (φ₂ := .f32) dot_S10000x64_S64x128_S10000x128_1_0_0_1_n_n none x (shapeCast S64x128 wf shapeCasts_S64x128_S64x128) (constant S10000x128 .f32 0x00000000#32))
          (matmul (φ₁ := .f32) (φ₂ := .f32) dot_S10000x64_S64x128_S10000x128_1_0_0_1_n_n none (shapeCast S10000x64 g shapeCasts_S10000x64_S10000x64) (shapeCast S64x128 wa shapeCasts_S64x128_S64x128) (constant S10000x128 .f32 0x00000000#32)))
          (broadcastTo S10000x128 (shapeCast S1x128 b1 shapeCasts_S128_S1x128) broadcasts_S1x128_S10000x128))
        (broadcast S10000x128 (Scalar.ofBits (F := Ideal) .f32 0x00000000#32)) (ix2 r j)
      = dense1 (fun a => x (ix2 r a)) (fun a => g (ix2 r a)) (fun a j => wf (ix2 a j)) (fun a j => wa (ix2 a j)) (fun j => b1 (ix1 j)) j := by
  rw [shapeCast_self, shapeCast_self, shapeCast_self]
  show max ((matmul (φ₁ := .f32) (φ₂ := .f32) _ none x wf _ (ix2 r j) + matmul (φ₁ := .f32) (φ₂ := .f32) _ none g wa _ (ix2 r j)) + broadcastTo S10000x128 _ _ (ix2 r j)) (Ideal.ofBits .f32 0x00000000#32) = _
  rw [matmul_in, matmul_in, bias_row128, Ideal.ofBits_zero_f32]
  rfl

/-- The second layer's block at (r, k), from any first-layer block. -/
theorem layer2_apply (h : FVec Ideal S10000x128 .f32) (w2 : FVec Ideal S128x128 .f32) (b2 : FVec Ideal S128 .f32)
    (r : Fin 10000) (k : Fin 128) :
    maximumf (addf (matmul (φ₁ := .f32) (φ₂ := .f32) dot_S10000x128_S128x128_S10000x128_1_0_0_1_n_n none h (shapeCast S128x128 w2 shapeCasts_S128x128_S128x128) (constant S10000x128 .f32 0x00000000#32))
          (broadcastTo S10000x128 (shapeCast S1x128 b2 shapeCasts_S128_S1x128) broadcasts_S1x128_S10000x128))
        (broadcast S10000x128 (Scalar.ofBits (F := Ideal) .f32 0x00000000#32)) (ix2 r k)
      = dense2 (fun j => h (ix2 r j)) (fun j k => w2 (ix2 j k)) (fun k => b2 (ix1 k)) k := by
  rw [shapeCast_self]
  show max (matmul (φ₁ := .f32) (φ₂ := .f32) _ none h w2 _ (ix2 r k) + broadcastTo S10000x128 _ _ (ix2 r k)) (Ideal.ofBits .f32 0x00000000#32) = _
  rw [matmul_hid, bias_row128, Ideal.ofBits_zero_f32]
  rfl

/-- The output layer's block at (r, q), from any second-layer block. -/
theorem layer3_apply (h : FVec Ideal S10000x128 .f32) (w3 : FVec Ideal S128x3 .f32) (b3 : FVec Ideal S3 .f32)
    (r : Fin 10000) (q : Fin 3) :
    addf (matmul (φ₁ := .f32) (φ₂ := .f32) dot_S10000x128_S128x3_S10000x3_1_0_0_1_n_n none h (shapeCast S128x3 w3 shapeCasts_S128x3_S128x3) (constant S10000x3 .f32 0x00000000#32))
          (broadcastTo S10000x3 (shapeCast S1x3 b3 shapeCasts_S3_S1x3) broadcasts_S1x3_S10000x3) (ix2 r q)
      = dense3 (fun k => h (ix2 r k)) (fun k q => w3 (ix2 k q)) (fun q => b3 (ix1 q)) q := by
  rw [shapeCast_self]
  show matmul (φ₁ := .f32) (φ₂ := .f32) _ none h w3 _ (ix2 r q) + broadcastTo S10000x3 _ _ (ix2 r q) = _
  rw [matmul_out, bias_row3]
  rfl

/-! ## The stored value at an entry -/

/-- The body's one store, read at row `y 0` and class `y 1` of the block: the three dense layers of that row. -/
theorem pay_apply (x g : Vec Ideal S10000x64 .f32) (wf wa : Vec Ideal S64x128 .f32) (b1 : Vec Ideal S128 .f32)
    (w2 : Vec Ideal S128x128 .f32) (b2 : Vec Ideal S128 .f32) (w3 : Vec Ideal S128x3 .f32) (b3 : Vec Ideal S3 .f32)
    (y : S10000x3.Idx) :
    k0_pay1 x g wf wa b1 w2 b2 w3 b3 y
      = mlpRow (fun a => x (ix2 (y 0) a)) (fun a => g (ix2 (y 0) a)) (fun a j => wf (ix2 a j)) (fun a j => wa (ix2 a j))
          (fun j => b1 (ix1 j)) (fun j k => w2 (ix2 j k)) (fun k => b2 (ix1 k)) (fun k q => w3 (ix2 k q)) (fun q => b3 (ix1 q)) (y 1) := by
  obtain ⟨r, q, rfl⟩ : ∃ (r : Fin 10000) (q : Fin 3), y = ix2 r q := ⟨y 0, y 1, eq_ix2 y⟩
  unfold k0_pay1
  exact (layer3_apply _ w3 b3 r q).trans (congrArg (fun h => dense3 h (fun k q => w3 (ix2 k q)) (fun q => b3 (ix1 q)) q)
    (funext fun k => (layer2_apply _ w2 b2 r k).trans (congrArg (fun h => dense2 h (fun j k => w2 (ix2 j k)) (fun k => b2 (ix1 k)) k)
      (funext fun j => layer1_apply x g wf wa b1 r j))))

end Cert.GnnMlp.Body

end
-- ==== Proof.HostArrays.lean ====
/-
  What the kernel's region finds in the arrays its windows stage.

  Before the region the program computes, with ordinary array operations: the aggregated array (for each edge the
  source node's feature row times the edge weight, added into the row of the destination node, starting from zeros; a
  negative node number is first shifted up by the node count, as array indexing does); the first weight matrix
  transposed and cut into its first 64 rows and its last 64 rows; the other two weight matrices transposed. The
  features and the three bias vectors are staged as they were passed in.
-/
import proofs.«130431_j63058709840500_2_alg».proof.Proof.Gen.KernelIdeal.Frame
import Idealize.ShloMosaic.Lib.StableHlo.Run
import Idealize.ShloMosaic.Lib.ValueLayout

noncomputable section

namespace Cert.GnnMlp.Kernel

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-- The source node of each edge, a negative number shifted up by the node count. -/
def srcIdx (e : IVec S2x1250000 32) : IVec S1250000x1 32 :=
  broadcastInDim S1250000x1 ![0] bcast_S1250000_S1250000x1_0
    (select (cmpi .slt (shapeCast _ (extractStridedSlice S1x1250000 ![0, 0] e slices_S2x1250000_S1x1250000_0_0) shapeCasts_S1x1250000_S1250000)
        (broadcastInDim S1250000 ![] bcast_S_S1250000 (constantI S_ 32 0#32)))
      (addi (shapeCast _ (extractStridedSlice S1x1250000 ![0, 0] e slices_S2x1250000_S1x1250000_0_0) shapeCasts_S1x1250000_S1250000)
        (broadcastInDim S1250000 ![] bcast_S_S1250000 (constantI S_ 32 100000#32)))
      (shapeCast _ (extractStridedSlice S1x1250000 ![0, 0] e slices_S2x1250000_S1x1250000_0_0) shapeCasts_S1x1250000_S1250000))

/-- The aggregated array: every edge's weighted source row added into its destination's row, from zeros. -/
def aggr (x : FVec Ideal S100000x64 .f32) (e : IVec S2x1250000 32) (w : FVec Ideal S1250000 .f32) : FVec Ideal S100000x64 .f32 :=
  Host.scatterAdd (F := Ideal) scatter_S100000x64_S1250000x1_S1250000x64_1_0_0_1
    (broadcastInDim S100000x64 ![] bcast_S_S100000x64 (constant (F := Ideal) S_ .f32 0x00000000#32))
    (broadcastInDim S1250000x1 ![0] bcast_S1250000_S1250000x1_0
      (shapeCast _ (extractStridedSlice S1x1250000 ![1, 0] e slices_S2x1250000_S1x1250000_1_0) shapeCasts_S1x1250000_S1250000))
    (mulf (F := Ideal) (Host.gather gather_S100000x64_S1250000x1_S1250000x64_1_0_n_n_0_1_164 x (srcIdx e))
      (broadcastInDim S1250000x64 ![0, 1] bcast_S1250000x1_S1250000x64_0_1 (broadcastInDim S1250000x1 ![0] bcast_S1250000_S1250000x1_0 w)))

set_option maxHeartbeats 2000000 in
set_option maxRecDepth 8192 in
/-- Window 1's array is the aggregated array of the arguments. -/
theorem V_aggr (c : Dev nD) :
    V m c main_v16 = aggr (m ((c : Thread nD τ).loc main_arg0)) (m ((c : Thread nD τ).loc main_arg1)) (m ((c : Thread nD τ).loc main_arg2)) := by
  unfold V; after_results_simp <;> rfl

/-- Window 2's array: the first 64 rows of the first weight matrix transposed. -/
theorem V_wrel_lo (c : Dev nD) :
    V m c main_v18 = extractStridedSlice S64x128 ![0, 0] (transpose S128x128 [1, 0] (m ((c : Thread nD τ).loc main_arg3)) transposes_S128x128_S128x128_1_0) slices_S128x128_S64x128_0_0 := by
  unfold V; after_results

/-- Window 3's array: the last 64 rows of the first weight matrix transposed. -/
theorem V_wrel_hi (c : Dev nD) :
    V m c main_v19 = extractStridedSlice S64x128 ![64, 0] (transpose S128x128 [1, 0] (m ((c : Thread nD τ).loc main_arg3)) transposes_S128x128_S128x128_1_0) slices_S128x128_S64x128_64_0 := by
  unfold V; after_results

/-- Window 5's array: the second weight matrix transposed. -/
theorem V_wh1 (c : Dev nD) :
    V m c main_v20 = transpose S128x128 [1, 0] (m ((c : Thread nD τ).loc main_arg5)) transposes_S128x128_S128x128_1_0 := by
  unfold V; after_results

/-- Window 7's array: the output weight matrix transposed. -/
theorem V_wout (c : Dev nD) :
    V m c main_v21 = transpose S128x3 [1, 0] (m ((c : Thread nD τ).loc main_arg7)) transposes_S3x128_S128x3_1_0 := by
  unfold V; after_results

end Cert.GnnMlp.Kernel

end
-- ==== Proof.KernelValue.lean ====
/-
  The kernel's result array as one function of its arguments.

  Grid point t stages rows 10000 t … 10000 t + 9999 of the feature array and of the aggregated array, and every point
  stages the five parameter arrays whole; it writes back rows 10000 t … 10000 t + 9999 of the result. Entry (r, q) of
  the block it writes is the network applied to row r of the two staged data blocks, that is, to row 10000 t + r of
  the two arrays. The ten blocks tile the 100000 rows, so the whole array ends holding the network of every row.
-/
import proofs.«130431_j63058709840500_2_alg».proof.Proof.Gen.KernelIdeal.Value
import proofs.«130431_j63058709840500_2_alg».proof.Proof.Payload
import proofs.«130431_j63058709840500_2_alg».proof.Proof.HostArrays

set_option maxRecDepth 16384

noncomputable section

open scoped BigOperators

namespace Cert.GnnMlp.Kernel

open Cert.KernelIdeal Cert.KernelIdeal.Gen Idealize.ShloMosaic Idealize.ShloMosaic.TcCoe Idealize.SL.Sem
open Idealize.ShloMosaic.ValueIdx Cert.GnnMlp
open Idealize.ShloMosaic.Pipeline (Dat)

variable (m : (ℓ : Loc nD τ sig) → Buf (Elt Ideal) ℓ) (ρ : Dev nD → PrngReg)

theorem off2 : (![0, 0] : Fin 2 → Nat) = fun _ => 0 := funext fun a => by fin_cases a <;> rfl
theorem off1 : (![0] : Fin 1 → Nat) = fun _ => 0 := funext fun a => by fin_cases a; rfl

/-- Where each window's block sits at grid point t: the two data windows and the result at block row t, the parameter
    windows at their one block. Decided over the ten points. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

/-- Row r of grid point t's data blocks is row 10000 t + r of the arrays. -/
def row (t : Fin cfg0.N) (r : Fin 10000) : Fin 100000 :=
  ⟨t.val * 10000 + r.val, by have ht : t.val < 10 := t.isLt; have hr := r.isLt; omega⟩

/-! ## Each window's block read at an entry -/

/-- The feature block at (r, a) is the feature array at row 10000 t + r. -/
theorem read_feat (c : Dev nD) (t : Fin cfg0.N) (r : Fin 10000) (a : Fin 64) :
    iblk m c 0 t (ix2 r a) = V m c main_arg0 (ix2 (row t r) a) := by
  obtain ⟨e0, e1, -⟩ := block_index t
  show V m c main_arg0 (((cfg0.win 0).blk t).view.emb (ix2 r a)) = V m c main_arg0 (ix2 (row t r) a)
  refine congrArg (V m c main_arg0) (funext fun d => Fin.ext ?_)
  match d with
  | ⟨0, _⟩ => show win0_0.index t (0 : Fin 2) * 10000 + 1 * r.val = t.val * 10000 + r.val; rw [e0]; omega
  | ⟨1, _⟩ => show win0_0.index t (1 : Fin 2) * 64 + 1 * a.val = a.val; rw [e1]; omega

/-- Read through grid point t's block of window 1, any array of that window's shape gives, at (r, a), its entry at row
    10000 t + r. (Stated for an arbitrary array: the aggregated array itself is a sum over all edges and is never opened.) -/
theorem blk1_read (c : Dev nD) (X : Buf (Elt Ideal) ((c : Thread nD τ).loc main_v16)) (t : Fin cfg0.N) (r : Fin 10000) (a : Fin 64) :
    ((cfg0.win 1).blk t).view.read (Elt Ideal) X (ix2 r a) = X (ix2 (row t r) a) := by
  obtain ⟨-, -, e0, e1, -⟩ := block_index t
  show X (((cfg0.win 1).blk t).view.emb (ix2 r a)) = X (ix2 (row t r) a)
  refine congrArg X (funext fun d => Fin.ext ?_)
  match d with
  | ⟨0, _⟩ => show win0_1.index t (0 : Fin 2) * 10000 + 1 * r.val = t.val * 10000 + r.val; rw [e0]; omega
  | ⟨1, _⟩ => show win0_1.index t (1 : Fin 2) * 64 + 1 * a.val = a.val; rw [e1]; omega

/-- The aggregated block at (r, a) is the aggregated array at row 10000 t + r. -/
theorem read_aggr (c : Dev nD) (t : Fin cfg0.N) (r : Fin 10000) (a : Fin 64) :
    iblk m c 1 t (ix2 r a) = V m c main_v16 (ix2 (row t r) a) :=
  blk1_read c (V m c main_v16) t r a

/-- The first half of the first weight matrix, staged transposed: entry (a, j) is W[j, a]. -/
theorem read_wrel_lo (c : Dev nD) (t : Fin cfg0.N) (a : Fin 64) (j : Fin 128) :
    iblk m c 2 t (ix2 a j) = m ((c : Thread nD τ).loc main_arg3) (ix2 j (lo64 a)) := by
  obtain ⟨-, -, -, -, e0, e1, -⟩ := block_index t
  have hb : iblk m c 2 t (ix2 a j) = V m c main_v18 (ix2 a j) := by
    show V m c main_v18 (((cfg0.win 2).blk t).view.emb (ix2 a j)) = V m c main_v18 (ix2 a j)
    refine congrArg (V m c main_v18) (funext fun d => Fin.ext ?_)
    match d with
    | ⟨0, _⟩ => show win0_2.index t (0 : Fin 2) * 64 + 1 * a.val = a.val; rw [e0]; omega
    | ⟨1, _⟩ => show win0_2.index t (1 : Fin 2) * 128 + 1 * j.val = j.val; rw [e1]; omega
  refine hb.trans ((congrFun (V_wrel_lo m c) (ix2 a j)).trans ?_)
  refine (slice2_axis0_eq 0 _ _ a j).trans ?_
  refine (transpose_ix2_apply _ _ _ _).trans ?_
  exact congrArg _ (congrArg (ix2 j) (Fin.ext (Nat.zero_add a.val)))

/-- The second half of the first weight matrix, staged transposed: entry (a, j) is W[j, 64 + a]. -/
theorem read_wrel_hi (c : Dev nD) (t : Fin cfg0.N) (a : Fin 64) (j : Fin 128) :
    iblk m c 3 t (ix2 a j) = m ((c : Thread nD τ).loc main_arg3) (ix2 j (hi64 a)) := by
  obtain ⟨-, -, -, -, -, -, e0, e1, -⟩ := block_index t
  have hb : iblk m c 3 t (ix2 a j) = V m c main_v19 (ix2 a j) := by
    show V m c main_v19 (((cfg0.win 3).blk t).view.emb (ix2 a j)) = V m c main_v19 (ix2 a j)
    refine congrArg (V m c main_v19) (funext fun d => Fin.ext ?_)
    match d with
    | ⟨0, _⟩ => show win0_3.index t (0 : Fin 2) * 64 + 1 * a.val = a.val; rw [e0]; omega
    | ⟨1, _⟩ => show win0_3.index t (1 : Fin 2) * 128 + 1 * j.val = j.val; rw [e1]; omega
  refine hb.trans ((congrFun (V_wrel_hi m c) (ix2 a j)).trans ?_)
  refine (slice2_axis0_eq 64 _ _ a j).trans ?_
  exact transpose_ix2_apply _ _ _ _

/-- The first bias, staged as passed in. -/
theorem read_brel (c : Dev nD) (t : Fin cfg0.N) (j : Fin 128) :
    iblk m c 4 t (ix1 j) = m ((c : Thread nD τ).loc main_arg4) (ix1 j) := by
  obtain ⟨-, -, -, -, -, -, -, -, e0, -⟩ := block_index t
  have hb : iblk m c 4 t (ix1 j) = V m c main_arg4 (ix1 j) := by
    show V m c main_arg4 (((cfg0.win 4).blk t).view.emb (ix1 j)) = V m c main_arg4 (ix1 j)
    refine congrArg (V m c main_arg4) (funext fun d => Fin.ext ?_)
    match d with
    | ⟨0, _⟩ => show win0_4.index t (0 : Fin 1) * 128 + 1 * j.val = j.val; rw [e0]; omega
  exact hb.trans (congrFun (V_main_arg4 m c) (ix1 j))

/-- The second weight matrix, staged transposed: entry (j, k) is W[k, j]. -/
theorem read_wh1 (c : Dev nD) (t : Fin cfg0.N) (j k : Fin 128) :
    iblk m c 5 t (ix2 j k) = m ((c : Thread nD τ).loc main_arg5) (ix2 k j) := by
  obtain ⟨-, -, -, -, -, -, -, -, -, e0, e1, -⟩ := block_index t
  have hb : iblk m c 5 t (ix2 j k) = V m c main_v20 (ix2 j k) := by
    show V m c main_v20 (((cfg0.win 5).blk t).view.emb (ix2 j k)) = V m c main_v20 (ix2 j k)
    refine congrArg (V m c main_v20) (funext fun d => Fin.ext ?_)
    match d with
    | ⟨0, _⟩ => show win0_5.index t (0 : Fin 2) * 128 + 1 * j.val = j.val; rw [e0]; omega
    | ⟨1, _⟩ => show win0_5.index t (1 : Fin 2) * 128 + 1 * k.val = k.val; rw [e1]; omega
  refine hb.trans ((congrFun (V_wh1 m c) (ix2 j k)).trans ?_)
  exact transpose_ix2_apply _ _ _ _

/-- The second bias, staged as passed in. -/
theorem read_bh1 (c : Dev nD) (t : Fin cfg0.N) (k : Fin 128) :
    iblk m c 6 t (ix1 k) = m ((c : Thread nD τ).loc main_arg6) (ix1 k) := by
  obtain ⟨-, -, -, -, -, -, -, -, -, -, -, e0, -⟩ := block_index t
  have hb : iblk m c 6 t (ix1 k) = V m c main_arg6 (ix1 k) := by
    show V m c main_arg6 (((cfg0.win 6).blk t).view.emb (ix1 k)) = V m c main_arg6 (ix1 k)
    refine congrArg (V m c main_arg6) (funext fun d => Fin.ext ?_)
    match d with
    | ⟨0, _⟩ => show win0_6.index t (0 : Fin 1) * 128 + 1 * k.val = k.val; rw [e0]; omega
  exact hb.trans (congrFun (V_main_arg6 m c) (ix1 k))

/-- The output weight matrix, staged transposed: entry (k, q) is W[q, k]. -/
theorem read_wout (c : Dev nD) (t : Fin cfg0.N) (k : Fin 128) (q : Fin 3) :
    iblk m c 7 t (ix2 k q) = m ((c : Thread nD τ).loc main_arg7) (ix2 q k) := by
  obtain ⟨-, -, -, -, -, -, -, -, -, -, -, -, e0, e1, -⟩ := block_index t
  have hb : iblk m c 7 t (ix2 k q) = V m c main_v21 (ix2 k q) := by
    show V m c main_v21 (((cfg0.win 7).blk t).view.emb (ix2 k q)) = V m c main_v21 (ix2 k q)
    refine congrArg (V m c main_v21) (funext fun d => Fin.ext ?_)
    match d with
    | ⟨0, _⟩ => show win0_7.index t (0 : Fin 2) * 128 + 1 * k.val = k.val; rw [e0]; omega
    | ⟨1, _⟩ => show win0_7.index t (1 : Fin 2) * 3 + 1 * q.val = q.val; rw [e1]; omega
  refine hb.trans ((congrFun (V_wout m c) (ix2 k q)).trans ?_)
  exact transpose_ix2_apply _ _ _ _

/-- The output bias, staged as passed in. -/
theorem read_bout (c : Dev nD) (t : Fin cfg0.N) (q : Fin 3) :
    iblk m c 8 t (ix1 q) = m ((c : Thread nD τ).loc main_arg8) (ix1 q) := by
  obtain ⟨-, -, -, -, -, -, -, -, -, -, -, -, -, -, e0, -⟩ := block_index t
  have hb : iblk m c 8 t (ix1 q) = V m c main_arg8 (ix1 q) := by
    show V m c main_arg8 (((cfg0.win 8).blk t).view.emb (ix1 q)) = V m c main_arg8 (ix1 q)
    refine congrArg (V m c main_arg8) (funext fun d => Fin.ext ?_)
    match d with
    | ⟨0, _⟩ => show win0_8.index t (0 : Fin 1) * 3 + 1 * q.val = q.val; rw [e0]; omega
  exact hb.trans (congrFun (V_main_arg8 m c) (ix1 q))

/-- Entry (r, q) of grid point t's result block is entry (10000 t + r, q) of the result array. -/
theorem out_index (t : Fin cfg0.N) (r : Fin 10000) (q : Fin 3) :
    ((cfg0.win 9).blk t).view.emb (ix2 r q) = ix2 (row t r) q := by
  obtain ⟨-, -, -, -, -, -, -, -, -, -, -, -, -, -, -, e0, e1⟩ := block_index t
  refine funext fun d => Fin.ext ?_
  match d with
  | ⟨0, _⟩ => show win0_9.index t (0 : Fin 2) * 10000 + 1 * r.val = t.val * 10000 + r.val; rw [e0]; omega
  | ⟨1, _⟩ => show win0_9.index t (1 : Fin 2) * 3 + 1 * q.val = q.val; rw [e1]; omega

/-! ## The result array -/

/-- The kernel's result as a function of the arrays the region finds. -/
def result (c : Dev nD) : S100000x3.Idx → EReal :=
  mlp (V m c main_arg0) (V m c main_v16) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8))

/-- What grid point t writes back is block t of `result`. -/
theorem flushed_eq (c : Dev nD) (t : Fin cfg0.N) :
    (dats m 0 c).flushed 9 t = ((cfg0.win 9).blk t).view.read (Elt Ideal) (result m c) := by
  rw [Cert.KernelIdeal.Value.flushed9]
  unfold out0_9
  rw [View.canon_unit_zero off2]
  simp only [View.ld_unit_zero (S := S10000x64) off2, View.ld_unit_zero (S := S64x128) off2, View.ld_unit_zero (S := S128) off1,
    View.ld_unit_zero (S := S128x128) off2, View.ld_unit_zero (S := S128x3) off2, View.ld_unit_zero (S := S3) off1]
  refine funext fun (y : S10000x3.Idx) => ?_
  obtain ⟨r, q, rfl⟩ : ∃ (r : Fin 10000) (q : Fin 3), y = ix2 r q := ⟨y 0, y 1, eq_ix2 y⟩
  show k0_pay1 (iblk m c 0 t) (iblk m c 1 t) (iblk m c 2 t) (iblk m c 3 t) (iblk m c 4 t) (iblk m c 5 t) (iblk m c 6 t) (iblk m c 7 t) (iblk m c 8 t) (ix2 r q)
    = result m c (((cfg0.win 9).blk t).view.emb (ix2 r q))
  refine ((Body.pay_apply _ _ _ _ _ _ _ _ _ (ix2 r q)).trans ?_).trans (congrArg (result m c) (out_index t r q).symm)
  show mlpRow (fun a => iblk m c 0 t (ix2 r a)) (fun a => iblk m c 1 t (ix2 r a)) (fun a j => iblk m c 2 t (ix2 a j))
      (fun a j => iblk m c 3 t (ix2 a j)) (fun j => iblk m c 4 t (ix1 j)) (fun j k => iblk m c 5 t (ix2 j k))
      (fun k => iblk m c 6 t (ix1 k)) (fun k q => iblk m c 7 t (ix2 k q)) (fun q => iblk m c 8 t (ix1 q)) q
    = mlpRow (fun a => V m c main_arg0 (ix2 (row t r) a)) (fun a => V m c main_v16 (ix2 (row t r) a))
      (fun a j => m ((c : Thread nD τ).loc main_arg3) (ix2 j (lo64 a))) (fun a j => m ((c : Thread nD τ).loc main_arg3) (ix2 j (hi64 a)))
      (fun j => m ((c : Thread nD τ).loc main_arg4) (ix1 j)) (fun j k => m ((c : Thread nD τ).loc main_arg5) (ix2 k j))
      (fun k => m ((c : Thread nD τ).loc main_arg6) (ix1 k)) (fun k q => m ((c : Thread nD τ).loc main_arg7) (ix2 q k))
      (fun q => m ((c : Thread nD τ).loc main_arg8) (ix1 q)) q
  simp only [read_feat m c t, read_aggr m c t, read_wrel_lo m c t, read_wrel_hi m c t, read_brel m c t, read_wh1 m c t,
    read_bh1 m c t, read_wout m c t, read_bout m c t]

/-! ## The ten blocks tile the result -/

/-- An index of the result array is in grid point t's block exactly when each coordinate is in the block's range. -/
theorem mem_blk (t : Fin cfg0.N) (i : S100000x3.Idx) :
    i ∈ ((cfg0.win 9).blk t).view.set ↔ ∀ a : Fin 2, win0_9.index t a * S10000x3.size a ≤ (i a).val ∧ (i a).val < win0_9.index t a * S10000x3.size a + S10000x3.size a := by
  show i ∈ ((View.whole main_v22).slice (win0_9.rect t)).set ↔ _
  rw [View.set_slice_whole, Rect.mem_set_unit]
  exact Iff.rfl

/-- Grid point number `n`, for n below ten. -/
theorem point_exists : ∀ n : Fin 10, ∃ t : Fin cfg0.N, t.val = n.val :=
  (by decide +kernel : ∀ n : Fin 10, ∃ t : Fin grid0.N, t.val = n.val)

/-- Row i of the result lies in the block of grid point i / 10000. -/
theorem cover (i : S100000x3.Idx) :
    ∃ t : Fin cfg0.N, (cfg0.win 9).flush t = true ∧ i ∈ ((cfg0.win 9).blk t).view.set := by
  have hi0 : (i 0).val < 100000 := (i 0).isLt
  have hi1 : (i 1).val < 3 := (i 1).isLt
  obtain ⟨t, ht⟩ := point_exists ⟨(i 0).val / 10000, by omega⟩
  have ht' : t.val = (i 0).val / 10000 := ht
  obtain ⟨-, -, -, -, -, -, -, -, -, -, -, -, -, -, -, e0, e1⟩ := block_index t
  refine ⟨t, flush0_9 t, ?_⟩
  rw [mem_blk]
  intro a
  match a with
  | ⟨0, _⟩ =>
    show win0_9.index t (0 : Fin 2) * 10000 ≤ (i 0).val ∧ (i 0).val < win0_9.index t (0 : Fin 2) * 10000 + 10000
    rw [e0, ht']; omega
  | ⟨1, _⟩ =>
    show win0_9.index t (1 : Fin 2) * 3 ≤ (i 1).val ∧ (i 1).val < win0_9.index t (1 : Fin 2) * 3 + 3
    rw [e1]; omega

/-- After the run the result array holds the network of every row of the arrays the region found. -/
theorem final (c : Dev nD) : (dats m 0 c).arrAt 9 cfg0.N = result m c :=
  (dats m 0 c).arrAt_eq_of_cover 9 (result m c) (fun t _ => flushed_eq m c t) cover

/-- The arrays the region found, in terms of the arguments: the features as passed in, the aggregated array computed
    from the features, the edges and the edge weights. -/
theorem result_args (c : Dev nD) :
    result m c = mlp (m ((c : Thread nD τ).loc main_arg0))
      (aggr (m ((c : Thread nD τ).loc main_arg0)) (m ((c : Thread nD τ).loc main_arg1)) (m ((c : Thread nD τ).loc main_arg2)))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8)) := by
  unfold result
  rw [V_main_arg0, V_aggr]

/-! ## The run -/

/-- Every weakly fair execution of the kernel program terminates with the result array at the network of the arguments,
    the arguments unchanged. -/
theorem run : θ_run defs (onTc (τ := τ) (main (F := Ideal))) ⟨m, fun _ => 0, ρ⟩ fun r => ∀ c : Dev nD,
      r.2.mem ((c : Thread nD τ).loc main_v22) = mlp (m ((c : Thread nD τ).loc main_arg0))
          (aggr (m ((c : Thread nD τ).loc main_arg0)) (m ((c : Thread nD τ).loc main_arg1)) (m ((c : Thread nD τ).loc main_arg2)))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans ((final m c).trans (result_args m c)), (h c).2⟩)
    (Cert.KernelIdeal.Value.run_blocks m ρ)

end Cert.GnnMlp.Kernel

end
-- ==== Proof.RefValue.lean ====
/-
  The reference program's result, read entry by entry, is the network of `Spec.lean`.

  The reference joins each node's feature row and aggregated row into one row of length 128 and multiplies it with the
  whole first weight matrix (transposed); the sum over the 128 positions splits into the first 64, where the joined row
  is the feature row, and the last 64, where it is the aggregated row. The other two layers are a matrix product with a
  transposed weight matrix, a bias row repeated down the rows and a maximum with zero, read off directly.
-/
import proofs.«130431_j63058709840500_2_alg».proof.Proof.Gen.ReferenceIdeal.Read
import proofs.«130431_j63058709840500_2_alg».proof.Proof.Spec
import Idealize.ShloMosaic.Lib.ValueLayout

noncomputable section

open scoped BigOperators

namespace Cert.GnnMlp.Ref

open Cert.ReferenceIdeal Cert.ReferenceIdeal.Read Idealize.ShloMosaic Idealize.ShloMosaic.ValueIdx Cert.GnnMlp

variable (x0 : (⟨S100000x64, .f32⟩ : BufTy).Contents (Elt Ideal)) (x1 : (⟨S2x1250000, .i32⟩ : BufTy).Contents (Elt Ideal))
  (x2 : (⟨S1250000, .f32⟩ : BufTy).Contents (Elt Ideal)) (x3 : (⟨S128x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S3x128, .f32⟩ : BufTy).Contents (Elt Ideal))
  (x8 : (⟨S3, .f32⟩ : BufTy).Contents (Elt Ideal))

/-! ## The joined row -/

/-- In its first 64 positions the joined row is the feature row. -/
theorem joined_lo (p : Fin 100000) (a : Fin 64) : val_main_v17 (F := Ideal) x0 x1 x2 (ix2 p (lo64 a)) = x0 (ix2 p a) := by
  unfold val_main_v17
  exact concatenate_pair_apply_left (s₁ := S100000x64) (s₂ := S100000x64) 1 x0 (val_main_v16 (F := Ideal) x0 x1 x2) _ (ix2 p (lo64 a)) rfl (ix2 p a)
    (fun b => match b with | ⟨0, _⟩ => rfl | ⟨1, _⟩ => rfl)

/-- In its last 64 positions the joined row is the aggregated row. -/
theorem joined_hi (p : Fin 100000) (a : Fin 64) :
    val_main_v17 (F := Ideal) x0 x1 x2 (ix2 p (hi64 a)) = val_main_v16 (F := Ideal) x0 x1 x2 (ix2 p a) := by
  unfold val_main_v17
  exact concatenate_pair_apply_right (s₁ := S100000x64) (s₂ := S100000x64) 1 x0 (val_main_v16 (F := Ideal) x0 x1 x2) _ (ix2 p (hi64 a)) rfl rfl (ix2 p a)
    (fun b => match b with | ⟨0, _⟩ => fun _ => rfl | ⟨1, _⟩ => fun h => absurd rfl h)
    (by show a.val + 64 = 64 + a.val; omega)

/-! ## The three layers at an entry -/

/-- The first layer at (p, j). -/
theorem layer1_apply (p : Fin 100000) (j : Fin 128) :
    val_main_v23 (F := Ideal) x0 x1 x2 x3 x4 (ix2 p j)
      = dense1 (fun a => x0 (ix2 p a)) (fun a => val_main_v16 (F := Ideal) x0 x1 x2 (ix2 p a))
          (fun a j => x3 (ix2 j (lo64 a))) (fun a j => x3 (ix2 j (hi64 a))) (fun j => x4 (ix1 j)) j := by
  have e1 : ∀ k : Fin 128, lidx_main_v19 (ix2 p j) k = ix2 p k := fun k =>
    funext fun a => Fin.ext (by match a with | ⟨0, _⟩ => rfl | ⟨1, _⟩ => rfl)
  have e2 : ∀ k : Fin 128, idx_main_v18 (ridx_main_v19 (ix2 p j) k) = ix2 j k := fun k =>
    funext fun a => Fin.ext (by match a with | ⟨0, _⟩ => rfl | ⟨1, _⟩ => rfl)
  have e3 : idx_main_v20 (idx_main_v21 (ix2 p j)) = ix1 j :=
    funext fun a => Fin.ext (by match a with | ⟨0, _⟩ => rfl)
  rw [val_main_v23_apply, val_main_v22_apply, val_main_v19_apply, val_main_v21_apply, val_main_v20_apply,
    val_main_call0_v0_apply, val_main_call0_cst_apply, sum_halves]
  simp only [e1, e2, e3, val_main_v18_apply, joined_lo, joined_hi, Ideal.addf_def, Ideal.maximumf_def, Ideal.ofBits_def,
    Ideal.ofBits_zero_f32]
  rfl

/-- The second layer at (p, k), over the first layer's row. -/
theorem layer2_apply (p : Fin 100000) (k : Fin 128) :
    val_main_v29 (F := Ideal) x0 x1 x2 x3 x4 x5 x6 (ix2 p k)
      = dense2 (fun j => val_main_v23 (F := Ideal) x0 x1 x2 x3 x4 (ix2 p j)) (fun j k => x5 (ix2 k j)) (fun k => x6 (ix1 k)) k := by
  have e1 : ∀ j : Fin 128, lidx_main_v25 (ix2 p k) j = ix2 p j := fun j =>
    funext fun a => Fin.ext (by match a with | ⟨0, _⟩ => rfl | ⟨1, _⟩ => rfl)
  have e2 : ∀ j : Fin 128, idx_main_v24 (ridx_main_v25 (ix2 p k) j) = ix2 k j := fun j =>
    funext fun a => Fin.ext (by match a with | ⟨0, _⟩ => rfl | ⟨1, _⟩ => rfl)
  have e3 : idx_main_v26 (idx_main_v27 (ix2 p k)) = ix1 k :=
    funext fun a => Fin.ext (by match a with | ⟨0, _⟩ => rfl)
  rw [val_main_v29_apply, val_main_v28_apply, val_main_v25_apply, val_main_v27_apply, val_main_v26_apply,
    val_main_call1_v0_apply, val_main_call1_cst_apply]
  simp only [e1, e2, e3, val_main_v24_apply, Ideal.addf_def, Ideal.maximumf_def, Ideal.ofBits_def, Ideal.ofBits_zero_f32]
  rfl

/-- The output layer at (p, q), over the second layer's row. -/
theorem layer3_apply (p : Fin 100000) (q : Fin 3) :
    val_main_v34 (F := Ideal) x0 x1 x2 x3 x4 x5 x6 x7 x8 (ix2 p q)
      = dense3 (fun k => val_main_v29 (F := Ideal) x0 x1 x2 x3 x4 x5 x6 (ix2 p k)) (fun k q => x7 (ix2 q k)) (fun q => x8 (ix1 q)) q := by
  have e1 : ∀ k : Fin 128, lidx_main_v31 (ix2 p q) k = ix2 p k := fun k =>
    funext fun a => Fin.ext (by match a with | ⟨0, _⟩ => rfl | ⟨1, _⟩ => rfl)
  have e2 : ∀ k : Fin 128, idx_main_v30 (ridx_main_v31 (ix2 p q) k) = ix2 q k := fun k =>
    funext fun a => Fin.ext (by match a with | ⟨0, _⟩ => rfl | ⟨1, _⟩ => rfl)
  have e3 : idx_main_v32 (idx_main_v33 (ix2 p q)) = ix1 q :=
    funext fun a => Fin.ext (by match a with | ⟨0, _⟩ => rfl)
  rw [val_main_v34_apply, val_main_v31_apply, val_main_v33_apply, val_main_v32_apply]
  simp only [e1, e2, e3, val_main_v30_apply, Ideal.addf_def]
  rfl

/-! ## The whole result -/

/-- The reference's result array is the network applied to the features, the reference's own aggregated array and the
    parameters. -/
theorem result_eq :
    val_main_v34 (F := Ideal) x0 x1 x2 x3 x4 x5 x6 x7 x8 = mlp x0 (val_main_v16 (F := Ideal) x0 x1 x2) x3 x4 x5 x6 x7 x8 := by
  funext i
  obtain ⟨p, q, rfl⟩ : ∃ (p : Fin 100000) (q : Fin 3), i = ix2 p q := ⟨i 0, i 1, eq_ix2 i⟩
  exact (layer3_apply x0 x1 x2 x3 x4 x5 x6 x7 x8 p q).trans (congrArg (fun h => dense3 h (fun k q => x7 (ix2 q k)) (fun q => x8 (ix1 q)) q)
    (funext fun k => (layer2_apply x0 x1 x2 x3 x4 x5 x6 p k).trans (congrArg (fun h => dense2 h (fun j k => x5 (ix2 k j)) (fun k => x6 (ix1 k)) k)
      (funext fun j => layer1_apply x0 x1 x2 x3 x4 p j))))

end Cert.GnnMlp.Ref

end
-- ==== Proof.SameAggr.lean ====
/-
  The two programs compute the aggregated array with the same operations, written once in each program's text: the two
  spellings are one function.
-/
import proofs.«130431_j63058709840500_2_alg».proof.Proof.HostArrays
import proofs.«130431_j63058709840500_2_alg».proof.Proof.Gen.ReferenceIdeal.Read

noncomputable section

namespace Cert.GnnMlp

open Idealize.ShloMosaic

/-- The kernel program's aggregated array is the reference program's. -/
theorem aggr_eq (x : FVec Ideal Cert.KernelIdeal.S100000x64 .f32) (e : IVec Cert.KernelIdeal.S2x1250000 32) (w : FVec Ideal Cert.KernelIdeal.S1250000 .f32) :
    Kernel.aggr x e w = Cert.ReferenceIdeal.Read.val_main_v16 (F := Ideal) x e w := rfl

end Cert.GnnMlp

end
-- ==== Proof.lean ====
/-
  A graph network layer: every node's feature row and the weighted sum of the feature rows arriving over its edges go
  through three dense layers (two with a ReLU) to three outputs per node.

  Both programs first build the aggregated array with the same array operations (gather the source rows, scale by the
  edge weights, add into the destination rows from zeros): that part is one function of the arguments in both texts and
  is never opened. They differ in the first dense layer. The reference joins the feature row and the aggregated row
  into a row of length 128 and multiplies with the whole transposed weight matrix. The kernel multiplies the feature
  row with the first 64 rows of that matrix and the aggregated row with the last 64 rows and adds the two products; it
  also works on blocks of 10000 nodes, one per grid point. Over the exact extended reals the sum over 128 positions is
  the sum over the first 64 plus the sum over the last 64, in any commutative monoid, so no finiteness of the inputs is
  needed; every other operation (products into a zero accumulator, biases repeated down the rows, the maximum with
  zero) is the same function on both sides, and ten blocks of 10000 rows tile the 100000 rows.

  The frames of the two kernel programs are the generated ones; the reference's frame is its generated run with the
  result dropped; the idealization rewrote nothing, so its soundness claim is trivial.
-/
import proofs.«130431_j63058709840500_2_alg».proof.Defs
import proofs.«130431_j63058709840500_2_alg».proof.Proof.Gen.Kernel
import proofs.«130431_j63058709840500_2_alg».proof.Proof.Gen.Kernel.Skeleton
import proofs.«130431_j63058709840500_2_alg».proof.Proof.Gen.Kernel.Launch
import proofs.«130431_j63058709840500_2_alg».proof.Proof.Gen.Kernel.Points
import proofs.«130431_j63058709840500_2_alg».proof.Proof.Gen.Kernel.Frame
import proofs.«130431_j63058709840500_2_alg».proof.Proof.Gen.KernelIdeal
import proofs.«130431_j63058709840500_2_alg».proof.Proof.Gen.KernelIdeal.Skeleton
import proofs.«130431_j63058709840500_2_alg».proof.Proof.Gen.KernelIdeal.Launch
import proofs.«130431_j63058709840500_2_alg».proof.Proof.Gen.KernelIdeal.Points
import proofs.«130431_j63058709840500_2_alg».proof.Proof.Gen.KernelIdeal.Frame
import proofs.«130431_j63058709840500_2_alg».proof.Proof.Gen.ReferenceIdeal
import proofs.«130431_j63058709840500_2_alg».proof.Proof.Gen.Pre_finite_inputs
import proofs.«130431_j63058709840500_2_alg».proof.Proof.Gen.KernelIdeal.Value
import proofs.«130431_j63058709840500_2_alg».proof.Proof.Gen.ReferenceIdeal.Run
import proofs.«130431_j63058709840500_2_alg».proof.Proof.Gen.ReferenceIdeal.Read
import proofs.«130431_j63058709840500_2_alg».proof.Proof.KernelValue
import proofs.«130431_j63058709840500_2_alg».proof.Proof.RefValue
import proofs.«130431_j63058709840500_2_alg».proof.Proof.SameAggr
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the network of the arguments in their result arrays:
    the kernel by its blocks (`Kernel.run`), the reference entry by entry (`Ref.result_eq`), the aggregated array the
    same function in both (`aggr_eq`). -/
theorem algebraic : Cert.algebraic_KernelIdeal_ReferenceIdeal := by
  intro m ρ m' ρ' _ hagree
  refine ⟨_, Cert.GnnMlp.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, Cert.GnnMlp.Ref.result_eq, ← Cert.GnnMlp.aggr_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
